-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x127 : Shape := ⟨3, ![2, 2048, 127]⟩
abbrev S128 : Shape := ⟨1, ![128]⟩
abbrev S_ : Shape := ⟨0, ![]⟩

class Facts : Prop where
  bcast_S_S2x2048x127 : S_.BroadcastsInDim S2x2048x127 (![] : Fin 0 → Fin S2x2048x127.rank)
  reducesTo_S2x2048x127_S_d0_1_2 : S2x2048x127.ReducesTo [0, 1, 2] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S2x2048x127 .f32) (main_arg1 : FVec F S128 .f32) : IVec S_ 1 :=
  let main_v0 : FVec F S2x2048x127 .f32 := Host.absf main_arg0
  let main_cst : FVec F S_ .f32 := constant S_ .f32 0x7F800000#32
  let main_v1 : FVec F S2x2048x127 .f32 := broadcastInDim S2x2048x127 ![] bcast_S_S2x2048x127 main_cst
  let main_v2 : IVec S2x2048x127 1 := cmpf .olt main_v0 main_v1
  let main_c : IVec S_ 1 := constantI S_ 1 1#1
  let main_v3 : IVec S_ 1 := (fun x v => Host.reduce IntOp.andi x v reducesTo_S2x2048x127_S_d0_1_2 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  main_v8
-- ==== Kernel.lean ====
abbrev S2x2048x127 : Shape := ⟨3, ![2, 2048, 127]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S128x128x1 : Shape := ⟨3, ![128, 128, 1]⟩
abbrev S2x2048x128x128 : Shape := ⟨4, ![2, 2048, 128, 128]⟩
abbrev S1x128x127 : Shape := ⟨3, ![1, 128, 127]⟩
abbrev S1x128x128x128 : Shape := ⟨4, ![1, 128, 128, 128]⟩
abbrev S128x127 : Shape := ⟨2, ![128, 127]⟩
abbrev S1x128x128 : Shape := ⟨3, ![1, 128, 128]⟩
abbrev S128x128x128 : Shape := ⟨3, ![128, 128, 128]⟩

abbrev nBuf : Space → Nat
  | .hbm => 41
  | .vmem => 5
  | .smem => 0
  | _ => 0

abbrev bufTy : (tb : Table) → Fin (tcTables nBuf tb) → BufTy
  | .hbm, ⟨0, _⟩ => ⟨S2x2048x127, .f32⟩
  | .hbm, ⟨1, _⟩ => ⟨S128, .f32⟩
  | .hbm, ⟨2, _⟩ => ⟨S128, .i32⟩
  | .hbm, ⟨3, _⟩ => ⟨S128x1, .i32⟩
  | .hbm, ⟨4, _⟩ => ⟨S128, .i32⟩
  | .hbm, ⟨5, _⟩ => ⟨S1x128, .i32⟩
  | .hbm, ⟨6, _⟩ => ⟨S128x128, .i32⟩
  | .hbm, ⟨7, _⟩ => ⟨S128x128, .i32⟩
  | .hbm, ⟨8, _⟩ => ⟨S128x128, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S128x128, .i32⟩
  | .hbm, ⟨16, _⟩ => ⟨S128x128, .i32⟩
  | .hbm, ⟨17, _⟩ => ⟨S_, .i32⟩
  | .hbm, ⟨18, _⟩ => ⟨S128x128, .i32⟩
  | .hbm, ⟨19, _⟩ => ⟨S128x128, .i1⟩
  | .hbm, ⟨20, _⟩ => ⟨S_, .i32⟩
  | .hbm, ⟨21, _⟩ => ⟨S128x128, .i32⟩
  | .hbm, ⟨22, _⟩ => ⟨S128x128, .i1⟩
  | .hbm, ⟨23, _⟩ => ⟨S_, .i32⟩
  | .hbm, ⟨24, _⟩ => ⟨S_, .i1⟩
  | .hbm, ⟨25, _⟩ => ⟨S128x128, .i1⟩
  | .hbm, ⟨26, _⟩ => ⟨S128x128, .i1⟩
  | .hbm, ⟨27, _⟩ => ⟨S128x128, .i1⟩
  | .hbm, ⟨28, _⟩ => ⟨S128x128, .i32⟩
  | .hbm, ⟨29, _⟩ => ⟨S128x128, .i32⟩
  | .hbm, ⟨30, _⟩ => ⟨S128x128, .i32⟩
  | .hbm, ⟨31, _⟩ => ⟨S_, .i32⟩
  | .hbm, ⟨32, _⟩ => ⟨S128x128, .i32⟩
  | .hbm, ⟨33, _⟩ => ⟨S128x128, .i1⟩
  | .hbm, ⟨34, _⟩ => ⟨S_, .i32⟩
  | .hbm, ⟨35, _⟩ => ⟨S128x128, .i32⟩
  | .hbm, ⟨36, _⟩ => ⟨S128x128, .i32⟩
  | .hbm, ⟨37, _⟩ => ⟨S128x128, .i32⟩
  | .hbm, ⟨38, _⟩ => ⟨S128x128x1, .i32⟩
  | .hbm, ⟨39, _⟩ => ⟨S128x128, .f32⟩
  | .hbm, ⟨40, _⟩ => ⟨S2x2048x128x128, .f32⟩
  | .local _ .vmem, ⟨0, _⟩ => ⟨S1x128x127, .f32⟩
  | .local _ .vmem, ⟨1, _⟩ => ⟨S1x128x127, .f32⟩
  | .local _ .vmem, ⟨2, _⟩ => ⟨S128x128, .f32⟩
  | .local _ .vmem, ⟨3, _⟩ => ⟨S1x128x128x128, .f32⟩
  | .local _ .vmem, ⟨4, _⟩ => ⟨S1x128x128x128, .f32⟩
  | _, _ => ⟨S2x2048x127, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v7 : Ref sig .tc := ⟨.hbm, 30, rfl⟩
abbrev main_c_0 : Ref sig .tc := ⟨.hbm, 31, rfl⟩
abbrev main_v8 : Ref sig .tc := ⟨.hbm, 32, rfl⟩
abbrev main_v9 : Ref sig .tc := ⟨.hbm, 33, rfl⟩
abbrev main_c_1 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x127 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  bcast_S128x128_S128x128x1_0_1 : S128x128.BroadcastsInDim S128x128x1 (![0, 1] : Fin 2 → Fin S128x128x1.rank)
  inb_S1x128x127_S1x128x127_0_0_0 : ∀ a, (![0, 0, 0] : Fin 3 → Nat) a + S1x128x127.size a ≤ S1x128x127.size a
  h_S1x128x127 : 0 < S1x128x127.numel
  shapeCasts_S1x128x127_S128x127 : S1x128x127.ShapeCasts S128x127
  concatenates_S128x127_S128x1_S128x128_d1 : Shape.Concatenates [S128x127, S128x1] S128x128 1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x128x1 : S128x128.ShapeCasts S128x128x1
  shapeCasts_S128x128_S1x128x128 : S128x128.ShapeCasts S1x128x128
  broadcasts_S128x128x1_S128x128x128 : S128x128x1.Broadcasts S128x128x128
  broadcasts_S1x128x128_S128x128x128 : S1x128x128.Broadcasts S128x128x128
  inb_S1x128x128x128_S1x128x128x128_0_0_0_0 : ∀ a, (![0, 0, 0, 0] : Fin 4 → Nat) a + S1x128x128x128.size a ≤ S1x128x128x128.size a
  h_S1x128x128x128 : 0 < S1x128x128x128.numel
  shapeCasts_S1x128x128x128_S128x128x128 : S1x128x128x128.ShapeCasts S128x128x128
  shapeCasts_S128x128x128_S1x128x128x128 : S128x128x128.ShapeCasts S1x128x128x128
  gather_S128_S128x128x1_S128x128_n_0_n_n_0_2_1_wf : GatherDims.WF S128 S128x128x1 S128x128 [] [0] [] [0] [] 2 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x127.size a ≤ S2x2048x127.size a
  hwx0_0 : ∀ i : grid0.Coords, EltTy.bits .f32 = 32 ∨ (Rect.block (s := S2x2048x127) S1x128x127.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128x128.size a ≤ S2x2048x128x128.size a
  hwx0_2 : ∀ i : grid0.Coords, EltTy.bits .f32 = 32 ∨ (Rect.block (s := S2x2048x128x128) S1x128x128x128.size (cc0_transform_2 i) (hinb0_2 i)).WholeWords (EltTy.packing .f32)

variable [Facts₀]

def gather_S128_S128x128x1_S128x128_n_0_n_n_0_2_1 : GatherDims S128 S128x128x1 S128x128 where
  offsetDims := []
  collapsedSliceDims := [0]
  operandBatchingDims := []
  startIndicesBatchingDims := []
  startIndexMap := [0]
  indexVectorDim := 2
  sliceSizes := ![1]
  wf := gather_S128_S128x128x1_S128x128_n_0_n_n_0_2_1_wf

abbrev win0_0 : Pipeline.Window sig grid0 :=
  Pipeline.Window.ofSpec (Memref.whole main_arg0) S1x128x127.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x2048x127 : Shape := ⟨3, ![2, 2048, 127]⟩
abbrev S128 : Shape := ⟨1, ![128]⟩
abbrev S2x2048x1 : Shape := ⟨3, ![2, 2048, 1]⟩
abbrev S_ : Shape := ⟨0, ![]⟩
abbrev S2x2048x128 : Shape := ⟨3, ![2, 2048, 128]⟩
abbrev S128x1 : Shape := ⟨2, ![128, 1]⟩
abbrev S1x128 : Shape := ⟨2, ![1, 128]⟩
abbrev S128x128 : Shape := ⟨2, ![128, 128]⟩
abbrev S128x128x1 : Shape := ⟨3, ![128, 128, 1]⟩
abbrev S2x2048x128x1 : Shape := ⟨4, ![2, 2048, 128, 1]⟩
abbrev S1x1x128x128 : Shape := ⟨4, ![1, 1, 128, 128]⟩
abbrev S2x2048x128x128 : Shape := ⟨4, ![2, 2048, 128, 128]⟩

abbrev nBuf : Space → Nat
  | .hbm => 49
  | .vmem => 0
  | .smem => 0
  | _ => 0

abbrev bufTy : (tb : Table) → Fin (tcTables nBuf tb) → BufTy
  | .hbm, ⟨0, _⟩ => ⟨S2x2048x127, .f32⟩
  | .hbm, ⟨1, _⟩ => ⟨S128, .f32⟩
  | .hbm, ⟨2, _⟩ => ⟨S2x2048x1, .f32⟩
  | .hbm, ⟨3, _⟩ => ⟨S_, .f32⟩
  | .hbm, ⟨4, _⟩ => ⟨S2x2048x1, .f32⟩
  | .hbm, ⟨5, _⟩ => ⟨S2x2048x128, .f32⟩
  | .hbm, ⟨6, _⟩ => ⟨S128, .i32⟩
  | .hbm, ⟨7, _⟩ => ⟨S128x1, .i32⟩
  | .hbm, ⟨8, _⟩ => ⟨S128, .i32⟩
  | .hbm, ⟨9, _⟩ => ⟨S1x128, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S128x128, .i32⟩
  | .hbm, ⟨20, _⟩ => ⟨S128x128, .i32⟩
  | .hbm, ⟨21, _⟩ => ⟨S_, .i32⟩
  | .hbm, ⟨22, _⟩ => ⟨S128x128, .i32⟩
  | .hbm, ⟨23, _⟩ => ⟨S128x128, .i1⟩
  | .hbm, ⟨24, _⟩ => ⟨S_, .i32⟩
  | .hbm, ⟨25, _⟩ => ⟨S128x128, .i32⟩
  | .hbm, ⟨26, _⟩ => ⟨S128x128, .i1⟩
  | .hbm, ⟨27, _⟩ => ⟨S_, .i32⟩
  | .hbm, ⟨28, _⟩ => ⟨S_, .i1⟩
  | .hbm, ⟨29, _⟩ => ⟨S128x128, .i1⟩
  | .hbm, ⟨30, _⟩ => ⟨S128x128, .i1⟩
  | .hbm, ⟨31, _⟩ => ⟨S128x128, .i1⟩
  | .hbm, ⟨32, _⟩ => ⟨S128x128, .i32⟩
  | .hbm, ⟨33, _⟩ => ⟨S128x128, .i32⟩
  | .hbm, ⟨34, _⟩ => ⟨S128x128, .i32⟩
  | .hbm, ⟨35, _⟩ => ⟨S_, .i32⟩
  | .hbm, ⟨36, _⟩ => ⟨S128x128, .i32⟩
  | .hbm, ⟨37, _⟩ => ⟨S128x128, .i1⟩
  | .hbm, ⟨38, _⟩ => ⟨S_, .i32⟩
  | .hbm, ⟨39, _⟩ => ⟨S128x128, .i32⟩
  | .hbm, ⟨40, _⟩ => ⟨S128x128, .i32⟩
  | .hbm, ⟨41, _⟩ => ⟨S128x128, .i32⟩
  | .hbm, ⟨42, _⟩ => ⟨S128x128x1, .i32⟩
  | .hbm, ⟨43, _⟩ => ⟨S128x128, .f32⟩
  | .hbm, ⟨44, _⟩ => ⟨S2x2048x128x1, .f32⟩
  | .hbm, ⟨45, _⟩ => ⟨S1x1x128x128, .f32⟩
  | .hbm, ⟨46, _⟩ => ⟨S2x2048x128x128, .f32⟩
  | .hbm, ⟨47, _⟩ => ⟨S2x2048x128x128, .f32⟩
  | .hbm, ⟨48, _⟩ => ⟨S2x2048x128x128, .f32⟩
  | _, _ => ⟨S2x2048x127, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v10 : Ref sig .tc := ⟨.hbm, 34, rfl⟩
abbrev main_c_0 : Ref sig .tc := ⟨.hbm, 35, rfl⟩
abbrev main_v11 : Ref sig .tc := ⟨.hbm, 36, rfl⟩
abbrev main_v12 : Ref sig .tc := ⟨.hbm, 37, rfl⟩
abbrev main_c_1 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩

abbrev nD : Nat := 1
abbrev τ : Topo := Topo.v7x

variable {F : FTy → Type} [FloatOps F]

class Facts₀ : Prop where
  slices_S2x2048x127_S2x2048x1_0_0_0 : S2x2048x127.Slices ![0, 0, 0] S2x2048x1
  bcast_S_S2x2048x1 : S_.BroadcastsInDim S2x2048x1 (![] : Fin 0 → Fin S2x2048x1.rank)
  concatenates_S2x2048x127_S2x2048x1_S2x2048x128_d2 : Shape.Concatenates [S2x2048x127, S2x2048x1] S2x2048x128 2
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  bcast_S128x128_S128x128x1_0_1 : S128x128.BroadcastsInDim S128x128x1 (![0, 1] : Fin 2 → Fin S128x128x1.rank)
  bcast_S2x2048x128_S2x2048x128x1_0_1_2 : S2x2048x128.BroadcastsInDim S2x2048x128x1 (![0, 1, 2] : Fin 3 → Fin S2x2048x128x1.rank)
  bcast_S128x128_S1x1x128x128_2_3 : S128x128.BroadcastsInDim S1x1x128x128 (![2, 3] : Fin 2 → Fin S1x1x128x128.rank)
  bcast_S2x2048x128x1_S2x2048x128x128_0_1_2_3 : S2x2048x128x1.BroadcastsInDim S2x2048x128x128 (![0, 1, 2, 3] : Fin 4 → Fin S2x2048x128x128.rank)
  bcast_S1x1x128x128_S2x2048x128x128_0_1_2_3 : S1x1x128x128.BroadcastsInDim S2x2048x128x128 (![0, 1, 2, 3] : Fin 4 → Fin S2x2048x128x128.rank)
  gather_S128_S128x128x1_S128x128_n_0_n_n_0_2_1_wf : GatherDims.WF S128 S128x128x1 S128x128 [] [0] [] [0] [] 2 ![1]

variable [Facts₀]

def gather_S128_S128x128x1_S128x128_n_0_n_n_0_2_1 : GatherDims S128 S128x128x1 S128x128 where
  offsetDims := []
  collapsedSliceDims := [0]
  operandBatchingDims := []
  startIndicesBatchingDims := []
  startIndexMap := [0]
  indexVectorDim := 2
  sliceSizes := ![1]
  wf := gather_S128_S128x128x1_S128x128_n_0_n_n_0_2_1_wf

class Facts : Prop extends Facts₀ where

variable [Facts]
-- ==== Proof.Spec.lean ====
/-
  The function both programs compute, stated once over literal shapes and depending on no program.

  For an input  x : [2, 2048, 127]  and a table  W : [128, 128]  the result at  (b, t, i, j)  is
      x̃(b, t, i) · W(i, j),
  where  x̃  is  x  with a column of ones appended along its last axis:  x̃(b, t, i) = x(b, t, i)  for  i < 127
  and  x̃(b, t, 127) = 1.  The table is a parameter: both programs build it from the coefficients by the same
  operations, so nothing here needs to know what it holds.  The product is taken on the extended reals; no
  law beyond the definition of the entrywise product is used, so no finiteness of the inputs is needed.
-/
import Idealize.ShloMosaic.PureOps.Ideal
import Idealize.ShloMosaic.Lib.ValueIdx

noncomputable section

namespace Cert.OnesColumnProduct

open Idealize.ShloMosaic Idealize.ShloMosaic.ValueIdx

/-- The shapes of the input, the table and the result. -/
abbrev SX : Shape := ⟨3, ![2, 2048, 127]⟩
abbrev SW : Shape := ⟨2, ![128, 128]⟩
abbrev SO : Shape := ⟨4, ![2, 2048, 128, 128]⟩

/-- The float one, as the pattern both programs print it with. -/
abbrev one : EReal := Ideal.ofBits .f32 0x3F800000#32

/-- The input with a column of ones appended: entry `i` of row `(b, t)`. -/
def withOnes (x : FVec Ideal SX .f32) (b : Fin 2) (t : Fin 2048) (i : Fin 128) : EReal :=
  if h : i.val < 127 then x (ix3 b t ⟨i.val, h⟩) else one

/-- The result array: the extended row entry times the table entry. -/
def outVal (x : FVec Ideal SX .f32) (W : FVec Ideal SW .f32) : FVec Ideal SO .f32 :=
  fun j => withOnes x (j 0) (j 1) (j 2) * W (ix2 (j 2) (j 3))

/-- The result at an index given by its four coordinates. -/
theorem outVal_ix4 (x : FVec Ideal SX .f32) (W : FVec Ideal SW .f32) (b : Fin 2) (t : Fin 2048) (i k : Fin 128) :
    outVal x W (ix4 b t i k) = withOnes x b t i * W (ix2 i k) := rfl

/-- The result at any index whose coordinates are known as numbers. -/
theorem outVal_of_coords (x : FVec Ideal SX .f32) (W : FVec Ideal SW .f32) (j : SO.Idx) (b : Fin 2) (t : Fin 2048) (i k : Fin 128)
    (h0 : (j 0).val = b.val) (h1 : (j 1).val = t.val) (h2 : (j 2).val = i.val) (h3 : (j 3).val = k.val) :
    outVal x W j = withOnes x b t i * W (ix2 i k) := by
  have e : j = ix4 b t i k := by
    funext a
    match a with
    | ⟨0, _⟩ => exact Fin.ext h0
    | ⟨1, _⟩ => exact Fin.ext h1
    | ⟨2, _⟩ => exact Fin.ext h2
    | ⟨3, _⟩ => exact Fin.ext h3
  rw [e, outVal_ix4]

/-- An entry of the extended row below the last column is the input's. -/
theorem withOnes_lt (x : FVec Ideal SX .f32) (b : Fin 2) (t : Fin 2048) (i : Fin 128) (h : i.val < 127) :
    withOnes x b t i = x (ix3 b t ⟨i.val, h⟩) := dif_pos h

/-- The last column of the extended row is one. -/
theorem withOnes_last (x : FVec Ideal SX .f32) (b : Fin 2) (t : Fin 2048) (i : Fin 128) (h : ¬ i.val < 127) :
    withOnes x b t i = one := dif_neg h

end Cert.OnesColumnProduct

end
-- ==== Proof.Payload.lean ====
/-
  The kernel body's arithmetic, read at one entry of the block it stores.

  At a grid point the body loads a block  x : [1, 128, 127]  of the input and the whole table  W : [128, 128],
  appends a column of ones to the block's 128 rows, and stores the outer-style product
      out(u, t, i, k) = x̃(t, i) · W(i, k)          (x̃ = the rows with the ones column appended)
  as a block [1, 128, 128, 128].  Every step but the product only re-lays values: a reshape keeps the row-major
  position, a broadcast repeats along the new axis, a concatenation reads the first piece below its extent and
  the second piece at or past it.  Each is read at an index by one lemma, and the chain composed.
-/
import proofs.«153055_j82446192214214_2_alg».proof.Proof.Gen.KernelIdeal.Skeleton
import proofs.«153055_j82446192214214_2_alg».proof.Proof.Spec
import Idealize.ShloMosaic.Lib.Pipeline.Value
import Idealize.ShloMosaic.Lib.ValueIdx
import Idealize.ShloMosaic.Lib.ValueLayout

noncomputable section

namespace Cert.KernelIdeal.Bridge

open Cert.KernelIdeal Cert.KernelIdeal.Gen Idealize.ShloMosaic Idealize.ShloMosaic.ValueIdx Cert.OnesColumnProduct

/-- The stored block is the product array with a unit axis in front. -/
theorem cast_out (v : FVec Ideal S128x128x128 .f32) (h : S128x128x128.ShapeCasts S1x128x128x128) (u : Fin 1) (t i k : Fin 128) :
    shapeCast S1x128x128x128 v h (ix4 u t i k) = v (ix3 t i k) :=
  shapeCast_abc_1abc_apply v h u t i k

/-- A column [128, 128, 1] repeated along the last axis. -/
theorem bcast_col (v : FVec Ideal S128x128x1 .f32) (h : S128x128x1.Broadcasts S128x128x128) (t i k : Fin 128) :
    broadcastTo S128x128x128 v h (ix3 t i k) = v (ix3 t i (0 : Fin 1)) :=
  broadcastTo_apply v h _ _ fun a => match a with
    | ⟨0, _⟩ => rfl
    | ⟨1, _⟩ => rfl
    | ⟨2, _⟩ => rfl

/-- A matrix [128, 128] viewed as a column of its entries. -/
theorem cast_col (v : FVec Ideal S128x128 .f32) (h : S128x128.ShapeCasts S128x128x1) (t i : Fin 128) (z : Fin 1) :
    shapeCast S128x128x1 v h (ix3 t i z) = v (ix2 t i) :=
  shapeCast_apply v h _ _ (by
    have hz : z.val = 0 := by omega
    rw [Shape.rowMajor_val_two, Shape.rowMajor_val_three]
    show t.val * 128 + i.val = (t.val * 128 + i.val) * 1 + z.val
    omega)

/-- A table [1, 128, 128] repeated along the first axis. -/
theorem bcast_row (v : FVec Ideal S1x128x128 .f32) (h : S1x128x128.Broadcasts S128x128x128) (t i k : Fin 128) :
    broadcastTo S128x128x128 v h (ix3 t i k) = v (ix3 (0 : Fin 1) i k) :=
  broadcastTo_apply v h _ _ fun a => match a with
    | ⟨0, _⟩ => rfl
    | ⟨1, _⟩ => rfl
    | ⟨2, _⟩ => rfl

/-- A matrix [128, 128] with a unit axis in front. -/
theorem cast_row (v : FVec Ideal S128x128 .f32) (h : S128x128.ShapeCasts S1x128x128) (u : Fin 1) (i k : Fin 128) :
    shapeCast S1x128x128 v h (ix3 u i k) = v (ix2 i k) :=
  shapeCast_ab_1ab_apply v h u i k

/-- The loaded block [1, 128, 127] viewed as its 128 rows. -/
theorem cast_in (v : FVec Ideal S1x128x127 .f32) (h : S1x128x127.ShapeCasts S128x127) (t : Fin 128) (i : Fin 127) :
    shapeCast S128x127 v h (ix2 t i) = v (ix3 (0 : Fin 1) t i) :=
  shapeCast_1ab_ab_apply v h t i

/-- The rows with a column appended, below the appended column: the rows themselves. -/
theorem cat_lt (v1 : FVec Ideal S128x127 .f32) (v2 : FVec Ideal S128x1 .f32)
    (h : Shape.Concatenates [S128x127, S128x1] S128x128 1) (t i : Fin 128) (hi : i.val < 127) :
    concatenate S128x128 1 [⟨S128x127, v1⟩, ⟨S128x1, v2⟩] h (ix2 t i) = v1 (ix2 t ⟨i.val, hi⟩) :=
  concatenate_pair_apply_left (1 : Fin S128x128.rank) v1 v2 h (ix2 t i) rfl (ix2 t ⟨i.val, hi⟩) fun b => match b with
    | ⟨0, _⟩ => rfl
    | ⟨1, _⟩ => rfl

/-- The rows with a column appended, at the appended column: that column. -/
theorem cat_ge (v1 : FVec Ideal S128x127 .f32) (v2 : FVec Ideal S128x1 .f32)
    (h : Shape.Concatenates [S128x127, S128x1] S128x128 1) (t i : Fin 128) (hi : ¬ i.val < 127) :
    concatenate S128x128 1 [⟨S128x127, v1⟩, ⟨S128x1, v2⟩] h (ix2 t i) = v2 (ix2 t (0 : Fin 1)) :=
  concatenate_pair_apply_right (1 : Fin S128x128.rank) v1 v2 h (ix2 t i) rfl rfl (ix2 t (0 : Fin 1))
    (fun b => match b with
      | ⟨0, _⟩ => fun _ => rfl
      | ⟨1, _⟩ => fun hb => absurd rfl hb)
    (by
      have := i.isLt
      show (0 : ℕ) + 127 = i.val
      omega)

/-- THE BODY'S RESULT AT AN ENTRY: the row entry (the loaded one below column 127, one at column 127) times the
    table entry. -/
theorem pay_apply (v0 : Vec Ideal S1x128x127 .f32) (v4 : Vec Ideal S128x128 .f32) (u : Fin 1) (t i k : Fin 128) :
    k0_pay1 v0 v4 (ix4 u t i k)
      = (if h : i.val < 127 then v0 (ix3 (0 : Fin 1) t ⟨i.val, h⟩) else one) * v4 (ix2 i k) := by
  unfold k0_pay1
  refine (cast_out _ _ u t i k).trans ?_
  refine (mulf_apply _ _ _).trans ?_
  refine congrArg₂ (· * ·) ?_ ?_
  · refine (bcast_col _ _ t i k).trans ?_
    refine (cast_col _ _ t i 0).trans ?_
    by_cases h : i.val < 127
    · rw [dif_pos h]
      refine (cat_lt _ _ _ t i h).trans ?_
      exact cast_in _ _ t ⟨i.val, h⟩
    · rw [dif_neg h]
      refine (cat_ge _ _ _ t i h).trans ?_
      rfl
  · refine (bcast_row _ _ t i k).trans ?_
    refine (cast_row _ _ 0 i k).trans ?_
    exact congrFun (shapeCast_self _ _) _

end Cert.KernelIdeal.Bridge

end
-- ==== Proof.KernelValue.lean ====
/-
  From blocks to the whole result array, for the kernel.

  The grid has 2 × 16 points.  At point (b, s) the input window hands the body rows 128·s … 128·s + 127 of
  batch b, the table window hands it the whole table at every point, and the output window writes back the
  block of the result with the same batch and rows and all of the last two axes.  So what a point writes back
  is the restriction to its block of ONE function of the whole arrays, `outVal`: the body's entry (Payload) read
  where the block sits.  The 32 blocks tile the result (row r of batch b lies in the block of point
  (b, r / 128)), hence the array ends holding `outVal` everywhere.
-/
import proofs.«153055_j82446192214214_2_alg».proof.Proof.Gen.KernelIdeal.Value
import proofs.«153055_j82446192214214_2_alg».proof.Proof.Payload
import Idealize.ShloMosaic.Lib.Pipeline.Value

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.ValueIdx Cert.OnesColumnProduct
open Idealize.ShloMosaic.Pipeline (Dat)

variable (m : (ℓ : Loc nD τ sig) → Buf (Elt Ideal) ℓ) (ρ : Dev nD → PrngReg)

theorem zero4 : (![0, 0, 0, 0] : Fin 4 → Nat) = fun _ => 0 := funext fun a => by fin_cases a <;> rfl
theorem zero3 : (![0, 0, 0] : Fin 3 → Nat) = fun _ => 0 := funext fun a => by fin_cases a <;> rfl
theorem zero2 : (![0, 0] : Fin 2 → Nat) = fun _ => 0 := funext fun a => by fin_cases a <;> rfl

/-- The printed index maps over the 32 points: the input block moves with the output block on the batch and row
    axes and stays at 0 on the last; the table's block never moves; the output block stays at 0 on the last two
    axes, and its batch and row-block indices stay in range. -/
theorem index_facts : ∀ t : Fin cfg0.N,
    win0_0.index t (0 : Fin 3) = win0_2.index t (0 : Fin 4)
    ∧ win0_0.index t (1 : Fin 3) = win0_2.index t (1 : Fin 4)
    ∧ win0_0.index t (2 : Fin 3) = 0
    ∧ win0_1.index t (0 : Fin 2) = 0
    ∧ win0_1.index t (1 : Fin 2) = 0
    ∧ win0_2.index t (2 : Fin 4) = 0
    ∧ win0_2.index t (3 : Fin 4) = 0
    ∧ win0_2.index t (0 : Fin 4) ≤ 1
    ∧ win0_2.index t (1 : Fin 4) ≤ 15 :=
  (by decide +kernel : ∀ t : Fin grid0.N, _)

/-- Every (batch, row-block) pair is some point's output block. -/
theorem index_onto : ∀ (q0 : Fin 2) (q1 : Fin 16), ∃ t : Fin cfg0.N, win0_2.index t = ![q0.val, q1.val, 0, 0] :=
  (by decide +kernel : ∀ (q0 : Fin 2) (q1 : Fin 16), ∃ t : Fin grid0.N, win0_2.index t = ![q0.val, q1.val, 0, 0])

/-- WHAT POINT `t` WRITES BACK is block `t` of `outVal` of the input and the table as the region finds them. -/
theorem flushed_eq (c : Dev nD) (t : Fin cfg0.N) :
    (dats m 0 c).flushed 2 t
      = ((cfg0.win 2).blk t).view.read (Elt Ideal) (outVal (V m c main_arg0) (V m c main_v14)) := by
  rw [Cert.KernelIdeal.Value.flushed2]
  unfold out0_2
  rw [View.canon_unit_zero zero4]
  simp only [View.ld_unit_zero (S := S1x128x127) zero3, View.ld_unit_zero (S := S128x128) zero2]
  obtain ⟨e00, e01, e02, e10, e11, e22, e23, b0, b1⟩ := index_facts t
  funext y
  obtain ⟨u, t', i, k, rfl⟩ : ∃ (u : Fin 1) (t' i k : Fin 128), y = ix4 u t' i k := ⟨y 0, y 1, y 2, y 3, eq_ix4 y⟩
  show k0_pay1 (iblk m c 0 t) (iblk m c 1 t) (ix4 u t' i k)
    = outVal (V m c main_arg0) (V m c main_v14) (((cfg0.win 2).blk t).view.emb (ix4 u t' i k))
  refine (pay_apply _ _ u t' i k).trans ?_
  have hu : u.val = 0 := by omega
  have ht' : t'.val < 128 := t'.isLt
  have hj0 : ((((cfg0.win 2).blk t).view.emb (ix4 u t' i k)) 0).val = win0_2.index t (0 : Fin 4) * 1 + 1 * u.val := rfl
  have hj1 : ((((cfg0.win 2).blk t).view.emb (ix4 u t' i k)) 1).val = win0_2.index t (1 : Fin 4) * 128 + 1 * t'.val := rfl
  have hj2 : ((((cfg0.win 2).blk t).view.emb (ix4 u t' i k)) 2).val = win0_2.index t (2 : Fin 4) * 128 + 1 * i.val := rfl
  have hj3 : ((((cfg0.win 2).blk t).view.emb (ix4 u t' i k)) 3).val = win0_2.index t (3 : Fin 4) * 128 + 1 * k.val := rfl
  rw [outVal_of_coords _ _ (((cfg0.win 2).blk t).view.emb (ix4 u t' i k))
    ⟨win0_2.index t (0 : Fin 4), by omega⟩ ⟨win0_2.index t (1 : Fin 4) * 128 + t'.val, by omega⟩ i k
    (by rw [hj0]; show _ = win0_2.index t (0 : Fin 4); omega) (by rw [hj1]; show _ = win0_2.index t (1 : Fin 4) * 128 + t'.val; omega)
    (by rw [hj2]; omega) (by rw [hj3]; omega)]
  refine congrArg₂ (· * ·) ?_ ?_
  · by_cases h : i.val < 127
    · rw [dif_pos h, withOnes_lt _ _ _ _ h]
      show V m c main_arg0 (((cfg0.win 0).blk t).view.emb (ix3 (0 : Fin 1) t' ⟨i.val, h⟩)) = V m c main_arg0 _
      refine congrArg (V m c main_arg0) ?_
      funext a; apply Fin.ext
      match a with
      | ⟨0, _⟩ => show win0_0.index t (0 : Fin 3) * 1 + 1 * 0 = win0_2.index t (0 : Fin 4); omega
      | ⟨1, _⟩ => show win0_0.index t (1 : Fin 3) * 128 + 1 * t'.val = win0_2.index t (1 : Fin 4) * 128 + t'.val; omega
      | ⟨2, _⟩ => show win0_0.index t (2 : Fin 3) * 127 + 1 * i.val = i.val; omega
    · rw [dif_neg h, withOnes_last _ _ _ _ h]
  · show V m c main_v14 (((cfg0.win 1).blk t).view.emb (ix2 i k)) = V m c main_v14 _
    refine congrArg (V m c main_v14) ?_
    funext a; apply Fin.ext
    match a with
    | ⟨0, _⟩ => show win0_1.index t (0 : Fin 2) * 128 + 1 * i.val = i.val; omega
    | ⟨1, _⟩ => show win0_1.index t (1 : Fin 2) * 128 + 1 * k.val = k.val; omega

/-- An index of the result lies in point `t`'s block iff each coordinate lies in the block's range on its axis. -/
theorem mem_blk (t : Fin cfg0.N) (i : S2x2048x128x128.Idx) :
    i ∈ ((cfg0.win 2).blk t).view.set ↔ ∀ a : Fin 4, win0_2.index t a * S1x128x128x128.size a ≤ (i a).val
      ∧ (i a).val < win0_2.index t a * S1x128x128x128.size a + S1x128x128x128.size a := by
  show i ∈ ((View.whole main_v15).slice (win0_2.rect t)).set ↔ _
  rw [View.set_slice_whole, Rect.mem_set_unit]
  exact Iff.rfl

/-- The blocks tile the result: row `r` of batch `b` lies in the block of the point with indices (b, r / 128). -/
theorem cover (i : S2x2048x128x128.Idx) :
    ∃ t : Fin cfg0.N, (cfg0.win 2).flush t = true ∧ i ∈ ((cfg0.win 2).blk t).view.set := by
  have hi0 : (i 0).val < 2 := (i 0).isLt
  have hi1 : (i 1).val < 2048 := (i 1).isLt
  have hi2 : (i 2).val < 128 := (i 2).isLt
  have hi3 : (i 3).val < 128 := (i 3).isLt
  obtain ⟨t, ht⟩ := index_onto ⟨(i 0).val, hi0⟩ ⟨(i 1).val / 128, by omega⟩
  have q0 : win0_2.index t (0 : Fin 4) = (i 0).val := congrFun ht 0
  have q1 : win0_2.index t (1 : Fin 4) = (i 1).val / 128 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 128 ≤ (i 1).val ∧ (i 1).val < win0_2.index t (1 : Fin 4) * 128 + 128; omega
  | ⟨2, _⟩ => show win0_2.index t (2 : Fin 4) * 128 ≤ (i 2).val ∧ (i 2).val < win0_2.index t (2 : Fin 4) * 128 + 128; omega
  | ⟨3, _⟩ => show win0_2.index t (3 : Fin 4) * 128 ≤ (i 3).val ∧ (i 3).val < win0_2.index t (3 : Fin 4) * 128 + 128; omega

/-- THE RESULT ARRAY after the run is `outVal` of the input and of the table as the region finds it. -/
theorem final (c : Dev nD) :
    (dats m 0 c).arrAt 2 cfg0.N = outVal (V m c main_arg0) (V m c main_v14) :=
  (dats m 0 c).arrAt_eq_of_cover 2 _ (fun t _ => flushed_eq m c t) cover

/-- The kernel's run, read: the result at `outVal` of the launched input and the table the host operations built,
    the arguments unchanged. -/
theorem run : θ_run defs (onTc (τ := τ) (main (F := Ideal))) ⟨m, fun _ => 0, ρ⟩ fun r => ∀ c : Dev nD,
      r.2.mem ((c : Thread nD τ).loc main_v15) = outVal (m ((c : Thread nD τ).loc main_arg0)) (V m c main_v14)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by rw [V_main_arg0])), (h c).2⟩)
    (Cert.KernelIdeal.Value.run_blocks m ρ)

end Cert.KernelIdeal.Bridge

end
-- ==== Proof.RefRun.lean ====
/-
  The reference program's run, read back.  Its @main is a straight line of host operations once the two
  outlined functions are written out at their call sites: `remainder` (the floor-style remainder jnp's `%`
  lowers to: the truncating remainder, corrected by the divisor where the signs differ) and, inside it,
  `_where` (one select, which replaces a zero divisor by one).  The line falls into three stretches:
    * the input with a column of ones appended (four operations; the slice is dead),
    * the coefficient table  W[i, j] = coeffs[(i + j) mod 128]  (thirty-eight operations: two iotas
      broadcast and added, the remainder by 128, the wrap of a negative index, the gather),
    * the product: both operands broadcast to [2, 2048, 128, 128] and multiplied (five operations).
  Every weakly fair execution terminates with each buffer at the fold of the operations over the launch
  contents (`run_main`).
-/
import proofs.«153055_j82446192214214_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The input with a column of ones appended along its last axis. -/
abbrev opsX : List (HloOp τ sig (Elt F)) :=
  [ unary main_arg0 main_v0 ((extractStridedSlice S2x2048x1 ![0, 0, 0] · slices_S2x2048x127_S2x2048x1_0_0_0) : (⟨S2x2048x127, .f32⟩ : BufTy).Contents (Elt F) → (⟨S2x2048x1, .f32⟩ : BufTy).Contents (Elt F)),
    nullary main_cst (constant S_ .f32 0x3F800000#32),
    unary main_cst main_v1 (broadcastInDim S2x2048x1 ![] bcast_S_S2x2048x1 : (⟨S_, .f32⟩ : BufTy).Contents (Elt F) → (⟨S2x2048x1, .f32⟩ : BufTy).Contents (Elt F)),
    binary main_arg0 main_v1 main_v2 ((fun a b => concatenate S2x2048x128 2 [⟨S2x2048x127, a⟩, ⟨S2x2048x1, b⟩] concatenates_S2x2048x127_S2x2048x1_S2x2048x128_d2) : (⟨S2x2048x127, .f32⟩ : BufTy).Contents (Elt F) → (⟨S2x2048x1, .f32⟩ : BufTy).Contents (Elt F) → (⟨S2x2048x128, .f32⟩ : BufTy).Contents (Elt F)) ]

/-- The coefficient table: row index plus column index, reduced mod 128, gathered from the coefficients. -/
abbrev opsW : List (HloOp τ sig (Elt F)) :=
  [ nullary main_v3 (iotaInDim S128 32 0),
    unary main_v3 main_v4 (broadcastInDim S128x1 ![0] bcast_S128_S128x1_0 : (⟨S128, .i32⟩ : BufTy).Contents (Elt F) → (⟨S128x1, .i32⟩ : BufTy).Contents (Elt F)),
    nullary main_v5 (iotaInDim S128 32 0),
    unary main_v5 main_v6 (broadcastInDim S1x128 ![1] bcast_S128_S1x128_1 : (⟨S128, .i32⟩ : BufTy).Contents (Elt F) → (⟨S1x128, .i32⟩ : BufTy).Contents (Elt F)),
    unary main_v4 main_v7 (broadcastInDim S128x128 ![0, 1] bcast_S128x1_S128x128_0_1 : (⟨S128x1, .i32⟩ : BufTy).Contents (Elt F) → (⟨S128x128, .i32⟩ : BufTy).Contents (Elt F)),
    unary main_v6 main_v8 (broadcastInDim S128x128 ![0, 1] bcast_S1x128_S128x128_0_1 : (⟨S1x128, .i32⟩ : BufTy).Contents (Elt F) → (⟨S128x128, .i32⟩ : BufTy).Contents (Elt F)),
    binary main_v7 main_v8 main_v9 (addi : (⟨S128x128, .i32⟩ : BufTy).Contents (Elt F) → (⟨S128x128, .i32⟩ : BufTy).Contents (Elt F) → (⟨S128x128, .i32⟩ : BufTy).Contents (Elt F)),
    nullary main_c (constantI S_ 32 128#32),
    -- remainder(%9, %c), written out over the call's buffers
    TRef.unary (.of main_c : TRef sig ⟨S_, .i32⟩) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S128x128 ![] bcast_S_S128x128),
    TRef.binary (.of main_v9 : TRef sig ⟨S128x128, .i32⟩) main_call0.v3 main_call0.v4 Host.remsi,
    TRef.nullary main_call0.c_1 (constantI S_ 32 0#32),
    TRef.unary main_call0.c_1 main_call0.v5 (broadcastInDim S128x128 ![] bcast_S_S128x128),
    TRef.binary main_call0.v4 main_call0.v5 main_call0.v6 (cmpi .ne),
    TRef.nullary main_call0.c_2 (constantI S_ 32 0#32),
    TRef.unary main_call0.c_2 main_call0.v7 (broadcastInDim S128x128 ![] bcast_S_S128x128),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S128x128 ![] bcast_S_S128x128),
    TRef.binary main_call0.v8 main_call0.v10 main_call0.v11 (cmpi .ne),
    TRef.binary main_call0.v11 main_call0.v6 main_call0.v12 andi,
    TRef.unary main_call0.call0.v0 main_call0.v13 (broadcastInDim S128x128 ![] bcast_S_S128x128),
    TRef.binary main_call0.v4 main_call0.v13 main_call0.v14 addi,
    TRef.ternary main_call0.v12 main_call0.v14 main_call0.v4 main_call0.v15 select,
    -- a negative index wraps once, then the gather
    nullary main_c_0 (constantI S_ 32 0#32),
    unary main_c_0 main_v11 (broadcastInDim S128x128 ![] bcast_S_S128x128 : (⟨S_, .i32⟩ : BufTy).Contents (Elt F) → (⟨S128x128, .i32⟩ : BufTy).Contents (Elt F)),
    binary main_v10 main_v11 main_v12 (cmpi .slt : (⟨S128x128, .i32⟩ : BufTy).Contents (Elt F) → (⟨S128x128, .i32⟩ : BufTy).Contents (Elt F) → (⟨S128x128, .i1⟩ : BufTy).Contents (Elt F)),
    nullary main_c_1 (constantI S_ 32 128#32),
    unary main_c_1 main_v13 (broadcastInDim S128x128 ![] bcast_S_S128x128 : (⟨S_, .i32⟩ : BufTy).Contents (Elt F) → (⟨S128x128, .i32⟩ : BufTy).Contents (Elt F)),
    binary main_v10 main_v13 main_v14 (addi : (⟨S128x128, .i32⟩ : BufTy).Contents (Elt F) → (⟨S128x128, .i32⟩ : BufTy).Contents (Elt F) → (⟨S128x128, .i32⟩ : BufTy).Contents (Elt F)),
    ternary main_v12 main_v14 main_v10 main_v15 (select : (⟨S128x128, .i1⟩ : BufTy).Contents (Elt F) → (⟨S128x128, .i32⟩ : BufTy).Contents (Elt F) → (⟨S128x128, .i32⟩ : BufTy).Contents (Elt F) → (⟨S128x128, .i32⟩ : BufTy).Contents (Elt F)),
    unary main_v15 main_v16 (broadcastInDim S128x128x1 ![0, 1] bcast_S128x128_S128x128x1_0_1 : (⟨S128x128, .i32⟩ : BufTy).Contents (Elt F) → (⟨S128x128x1, .i32⟩ : BufTy).Contents (Elt F)),
    binary main_arg1 main_v16 main_v17 ((fun x i => Host.gather gather_S128_S128x128x1_S128x128_n_0_n_n_0_2_1 x i) : (⟨S128, .f32⟩ : BufTy).Contents (Elt F) → (⟨S128x128x1, .i32⟩ : BufTy).Contents (Elt F) → (⟨S128x128, .f32⟩ : BufTy).Contents (Elt F)) ]

/-- The product: each operand broadcast to the result's shape, then multiplied entry by entry. -/
abbrev opsT : List (HloOp τ sig (Elt F)) :=
  [ unary main_v2 main_v18 (broadcastInDim S2x2048x128x1 ![0, 1, 2] bcast_S2x2048x128_S2x2048x128x1_0_1_2 : (⟨S2x2048x128, .f32⟩ : BufTy).Contents (Elt F) → (⟨S2x2048x128x1, .f32⟩ : BufTy).Contents (Elt F)),
    unary main_v17 main_v19 (broadcastInDim S1x1x128x128 ![2, 3] bcast_S128x128_S1x1x128x128_2_3 : (⟨S128x128, .f32⟩ : BufTy).Contents (Elt F) → (⟨S1x1x128x128, .f32⟩ : BufTy).Contents (Elt F)),
    unary main_v18 main_v20 (broadcastInDim S2x2048x128x128 ![0, 1, 2, 3] bcast_S2x2048x128x1_S2x2048x128x128_0_1_2_3 : (⟨S2x2048x128x1, .f32⟩ : BufTy).Contents (Elt F) → (⟨S2x2048x128x128, .f32⟩ : BufTy).Contents (Elt F)),
    unary main_v19 main_v21 (broadcastInDim S2x2048x128x128 ![0, 1, 2, 3] bcast_S1x1x128x128_S2x2048x128x128_0_1_2_3 : (⟨S1x1x128x128, .f32⟩ : BufTy).Contents (Elt F) → (⟨S2x2048x128x128, .f32⟩ : BufTy).Contents (Elt F)),
    binary main_v20 main_v21 main_v22 (mulf : (⟨S2x2048x128x128, .f32⟩ : BufTy).Contents (Elt F) → (⟨S2x2048x128x128, .f32⟩ : BufTy).Contents (Elt F) → (⟨S2x2048x128x128, .f32⟩ : BufTy).Contents (Elt F)) ]

/-- @main's forty-seven operations, in order. -/
abbrev ops : List (HloOp τ sig (Elt F)) := opsX ++ (opsW ++ opsT)

-- forty-seven binds re-associated: the rewrite under the chain recurses once per statement
set_option maxRecDepth 2048 in
/-- @main is that straight line: the two functions' definitions unfolded at their calls, both sides are one
    chain of steps once sequencing is re-associated. -/
theorem main_eq (c : Dev nD) : main (F := F) c = seq ops := by
  simp only [main, fn_remainder.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem opsX_sub : (opsX : List (HloOp τ sig (Elt F))).Forall fun op => op.bufs ⊆ tcRefs τ sig :=
  ⟨unary_bufs_sub .., nullary_bufs_sub .., unary_bufs_sub .., binary_bufs_sub ..⟩

theorem opsT_sub : (opsT : List (HloOp τ sig (Elt F))).Forall fun op => op.bufs ⊆ tcRefs τ sig :=
  ⟨unary_bufs_sub .., unary_bufs_sub .., unary_bufs_sub .., unary_bufs_sub .., binary_bufs_sub ..⟩

theorem opsW_sub : (opsW : List (HloOp τ sig (Elt F))).Forall fun op => op.bufs ⊆ tcRefs τ sig :=
  ⟨nullary_bufs_sub .., unary_bufs_sub .., nullary_bufs_sub .., unary_bufs_sub .., unary_bufs_sub .., unary_bufs_sub .., binary_bufs_sub .., nullary_bufs_sub ..,
    unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..,
    nullary_bufs_sub .., unary_bufs_sub .., binary_bufs_sub .., nullary_bufs_sub .., unary_bufs_sub .., binary_bufs_sub .., ternary_bufs_sub .., unary_bufs_sub .., binary_bufs_sub ..⟩

theorem ops_sub : (ops : List (HloOp τ sig (Elt F))).Forall fun op => op.bufs ⊆ tcRefs τ sig :=
  List.forall_iff_forall_mem.mpr fun op h => by
    rcases List.mem_append.mp h with h | h
    · exact List.forall_iff_forall_mem.mp opsX_sub op h
    · rcases List.mem_append.mp h with h | h
      · exact List.forall_iff_forall_mem.mp opsW_sub op h
      · exact List.forall_iff_forall_mem.mp opsT_sub op h

/-- No operation of the line allocates: each determines its results. -/
theorem opsX_fresh : (opsX : List (HloOp τ sig (Elt F))).Forall fun op => op.fresh = ∅ := by
  simp only [List.Forall]; repeat' constructor
theorem opsW_fresh : (opsW : List (HloOp τ sig (Elt F))).Forall fun op => op.fresh = ∅ := by
  simp only [List.Forall]; repeat' constructor
theorem opsT_fresh : (opsT : List (HloOp τ sig (Elt F))).Forall fun op => op.fresh = ∅ := by
  simp only [List.Forall]; repeat' constructor

theorem ops_fresh : ∀ op ∈ (ops : List (HloOp τ sig (Elt F))), op.fresh = ∅ := fun op h => by
  rcases List.mem_append.mp h with h | h
  · exact List.forall_iff_forall_mem.mp opsX_fresh op h
  · rcases List.mem_append.mp h with h | h
    · exact List.forall_iff_forall_mem.mp opsW_fresh op h
    · exact List.forall_iff_forall_mem.mp opsT_fresh op h

/-- A fold over two lines one after the other is the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- On every device, from any memory with zero counters: every weakly fair execution of @main terminates, and every
    final state has each buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after opsT (after opsW (after opsX (launchContents m c))) (Proc.devRef .tc b) :=
  (θ_run defs _ _).mono (fun _ h c b => by rw [h c b, after_append, after_append])
    (run_seq scopedRefs_eq scopedSems_eq defs main (fun _ => ops) main_eq (fun _ => ops_sub) m ρ
      (fun _ => ops_fresh))

end Cert.ReferenceIdeal.Hand

end
-- ==== Proof.RefValue.lean ====
/-
  The reference's result, read at an entry.

  After the table is built, the reference broadcasts the extended input  x̃ : [2, 2048, 128]  along a new last
  axis and the table  W : [128, 128]  along two new leading axes, both to [2, 2048, 128, 128], and multiplies entry
  by entry: the result at (b, t, i, k) is  x̃(b, t, i) · W(i, k).  The extended input is the concatenation of the
  input with a broadcast one along the last axis, which at column i reads the input below 127 and one at 127.
  The table's thirty-eight operations are never opened here: the table stays the fold's value at its buffer.
-/
import proofs.«153055_j82446192214214_2_alg».proof.Proof.RefRun
import proofs.«153055_j82446192214214_2_alg».proof.Proof.Spec
import Idealize.ShloMosaic.Lib.Pipeline.Value
import Idealize.ShloMosaic.Lib.IdealHost

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.OnesColumnProduct

/-- The extended input repeated along a new last axis of extent one. -/
theorem bcast_x1 (v : FVec Ideal S2x2048x128 .f32) (b : Fin 2) (t : Fin 2048) (i : Fin 128) (z : Fin 1) :
    broadcastInDim S2x2048x128x1 ![0, 1, 2] bcast_S2x2048x128_S2x2048x128x1_0_1_2 v (ix4 b t i z) = v (ix3 b t i) :=
  broadcastInDim_apply _ _ v _ _ fun a => match a with
    | ⟨0, _⟩ => rfl
    | ⟨1, _⟩ => rfl
    | ⟨2, _⟩ => rfl

/-- and then along that axis to extent 128. -/
theorem bcast_x2 (v : FVec Ideal S2x2048x128x1 .f32) (b : Fin 2) (t : Fin 2048) (i k : Fin 128) :
    broadcastInDim S2x2048x128x128 ![0, 1, 2, 3] bcast_S2x2048x128x1_S2x2048x128x128_0_1_2_3 v (ix4 b t i k) = v (ix4 b t i (0 : Fin 1)) :=
  broadcastInDim_apply _ _ v _ _ fun a => match a with
    | ⟨0, _⟩ => rfl
    | ⟨1, _⟩ => rfl
    | ⟨2, _⟩ => rfl
    | ⟨3, _⟩ => rfl

/-- The table given two leading axes of extent one. -/
theorem bcast_w1 (v : FVec Ideal S128x128 .f32) (y z : Fin 1) (i k : Fin 128) :
    broadcastInDim S1x1x128x128 ![2, 3] bcast_S128x128_S1x1x128x128_2_3 v (ix4 y z i k) = v (ix2 i k) :=
  broadcastInDim_apply _ _ v _ _ fun a => match a with
    | ⟨0, _⟩ => rfl
    | ⟨1, _⟩ => rfl

/-- and then repeated along them to extents 2 and 2048. -/
theorem bcast_w2 (v : FVec Ideal S1x1x128x128 .f32) (b : Fin 2) (t : Fin 2048) (i k : Fin 128) :
    broadcastInDim S2x2048x128x128 ![0, 1, 2, 3] bcast_S1x1x128x128_S2x2048x128x128_0_1_2_3 v (ix4 b t i k) = v (ix4 (0 : Fin 1) (0 : Fin 1) i k) :=
  broadcastInDim_apply _ _ v _ _ fun a => match a with
    | ⟨0, _⟩ => rfl
    | ⟨1, _⟩ => rfl
    | ⟨2, _⟩ => rfl
    | ⟨3, _⟩ => rfl

/-- An array with a unit column appended along the last axis, below the appended column: the array itself. -/
theorem concat_lt (x : FVec Ideal S2x2048x127 .f32) (o : FVec Ideal S2x2048x1 .f32) (b : Fin 2) (t : Fin 2048) (i : Fin 128)
    (h : i.val < 127) :
    concatenate S2x2048x128 2 [⟨S2x2048x127, x⟩, ⟨S2x2048x1, o⟩] concatenates_S2x2048x127_S2x2048x1_S2x2048x128_d2 (ix3 b t i)
      = x (ix3 b t ⟨i.val, h⟩) :=
  concatenate_pair_apply_left (2 : Fin S2x2048x128.rank) x o concatenates_S2x2048x127_S2x2048x1_S2x2048x128_d2 (ix3 b t i) rfl
    (ix3 b t ⟨i.val, h⟩) fun a => match a with
      | ⟨0, _⟩ => rfl
      | ⟨1, _⟩ => rfl
      | ⟨2, _⟩ => rfl

/-- and at the appended column: that column. -/
theorem concat_ge (x : FVec Ideal S2x2048x127 .f32) (o : FVec Ideal S2x2048x1 .f32) (b : Fin 2) (t : Fin 2048) (i : Fin 128)
    (h : ¬ i.val < 127) :
    concatenate S2x2048x128 2 [⟨S2x2048x127, x⟩, ⟨S2x2048x1, o⟩] concatenates_S2x2048x127_S2x2048x1_S2x2048x128_d2 (ix3 b t i)
      = o (ix3 b t (0 : Fin 1)) :=
  concatenate_pair_apply_right (2 : Fin S2x2048x128.rank) x o concatenates_S2x2048x127_S2x2048x1_S2x2048x128_d2 (ix3 b t i) rfl rfl
    (ix3 b t (0 : Fin 1))
    (fun a => match a with
      | ⟨0, _⟩ => fun _ => rfl
      | ⟨1, _⟩ => fun _ => rfl
      | ⟨2, _⟩ => fun ha => absurd rfl ha)
    (by
      have := i.isLt
      show (0 : ℕ) + 127 = i.val
      omega)

/-- The input with the broadcast one appended along the last axis, read at column `i`. -/
theorem concat_apply (x : FVec Ideal S2x2048x127 .f32) (b : Fin 2) (t : Fin 2048) (i : Fin 128) :
    concatenate S2x2048x128 2 [⟨S2x2048x127, x⟩, ⟨S2x2048x1, broadcastInDim S2x2048x1 ![] bcast_S_S2x2048x1 (constant (F := Ideal) S_ .f32 0x3F800000#32)⟩]
        concatenates_S2x2048x127_S2x2048x1_S2x2048x128_d2 (ix3 b t i)
      = withOnes x b t i := by
  by_cases h : i.val < 127
  · rw [withOnes_lt _ _ _ _ h]
    exact concat_lt x _ b t i h
  · rw [withOnes_last _ _ _ _ h]
    refine (concat_ge x _ b t i h).trans ?_
    rw [broadcastInDim_scalar_apply]
    rfl

/-- The product's five operations over any contents: both operands broadcast, then multiplied. -/
theorem tail_result (U : Valuation τ sig (Elt Ideal)) :
    after opsT U (Proc.devRef .tc main_v22)
      = mulf (F := Ideal) (φ := .f32)
          (broadcastInDim S2x2048x128x128 ![0, 1, 2, 3] bcast_S2x2048x128x1_S2x2048x128x128_0_1_2_3
            (broadcastInDim S2x2048x128x1 ![0, 1, 2] bcast_S2x2048x128_S2x2048x128x1_0_1_2
              (U (Proc.devRef .tc main_v2) : FVec Ideal S2x2048x128 .f32)))
          (broadcastInDim S2x2048x128x128 ![0, 1, 2, 3] bcast_S1x1x128x128_S2x2048x128x128_0_1_2_3
            (broadcastInDim S1x1x128x128 ![2, 3] bcast_S128x128_S1x1x128x128_2_3
              (U (Proc.devRef .tc main_v17) : FVec Ideal S128x128 .f32))) := by
  after_results

/-- The product leaves the arguments alone. -/
theorem tail_arg0 (U : Valuation τ sig (Elt Ideal)) : after opsT U (Proc.devRef .tc main_arg0) = U (Proc.devRef .tc main_arg0) := by
  after_results
theorem tail_arg1 (U : Valuation τ sig (Elt Ideal)) : after opsT U (Proc.devRef .tc main_arg1) = U (Proc.devRef .tc main_arg1) := by
  after_results

/-- The table's operations write neither the extended input nor the arguments. -/
theorem tab_keeps_v2 (U : Valuation τ sig (Elt Ideal)) : after opsW U (Proc.devRef .tc main_v2) = U (Proc.devRef .tc main_v2) := by
  after_results_simp
theorem tab_keeps_arg0 (U : Valuation τ sig (Elt Ideal)) : after opsW U (Proc.devRef .tc main_arg0) = U (Proc.devRef .tc main_arg0) := by
  after_results_simp
theorem tab_keeps_arg1 (U : Valuation τ sig (Elt Ideal)) : after opsW U (Proc.devRef .tc main_arg1) = U (Proc.devRef .tc main_arg1) := by
  after_results_simp

/-- The first stretch: the extended input is the concatenation; the arguments are untouched. -/
theorem ext_result (V : Valuation τ sig (Elt Ideal)) :
    after opsX V (Proc.devRef .tc main_v2)
      = concatenate S2x2048x128 2 [⟨S2x2048x127, V (Proc.devRef .tc main_arg0)⟩, ⟨S2x2048x1, broadcastInDim S2x2048x1 ![] bcast_S_S2x2048x1 (constant (F := Ideal) S_ .f32 0x3F800000#32)⟩]
          concatenates_S2x2048x127_S2x2048x1_S2x2048x128_d2 := by
  after_results
theorem ext_arg0 (V : Valuation τ sig (Elt Ideal)) : after opsX V (Proc.devRef .tc main_arg0) = V (Proc.devRef .tc main_arg0) := by
  after_results
theorem ext_arg1 (V : Valuation τ sig (Elt Ideal)) : after opsX V (Proc.devRef .tc main_arg1) = V (Proc.devRef .tc main_arg1) := by
  after_results

/-- THE REFERENCE'S RESULT is `outVal` of the input and of the table the middle stretch leaves in its buffer. -/
theorem result_eq (V : Valuation τ sig (Elt Ideal)) :
    after opsT (after opsW (after opsX V)) (Proc.devRef .tc main_v22)
      = outVal (V (Proc.devRef .tc main_arg0)) (after opsW (after opsX V) (Proc.devRef .tc main_v17)) := by
  rw [tail_result]
  funext j
  obtain ⟨b, t, i, k, rfl⟩ : ∃ (b : Fin 2) (t : Fin 2048) (i k : Fin 128), j = ix4 b t i k := ⟨j 0, j 1, j 2, j 3, eq_ix4 j⟩
  rw [outVal_ix4]
  refine (mulf_apply _ _ _).trans ?_
  refine congrArg₂ (· * ·) ?_ ?_
  · refine (bcast_x2 _ b t i k).trans ?_
    refine (bcast_x1 _ b t i 0).trans ?_
    rw [tab_keeps_v2, ext_result]
    exact concat_apply _ b t i
  · refine (bcast_w2 _ b t i k).trans ?_
    exact bcast_w1 _ 0 0 i k

end Cert.ReferenceIdeal.Hand

end
-- ==== Proof.Table.lean ====
/-
  The two programs build ONE coefficient table.

  Before it launches its kernel, the kernel program's @main computes  W[i, j] = coeffs[(i + j) mod 128]  on the host, by exactly the
  operations the reference uses: two iotas broadcast to [128, 128] and added, the remainder by 128 (with its
  sign correction), one wrap of a negative index, and the gather.  The two lists differ only in the names of
  their buffers, so the value each leaves in its table buffer is the same term of the coefficients; nothing about
  what the table holds is needed, and none of its operations is evaluated.
-/
import proofs.«153055_j82446192214214_2_alg».proof.Proof.Gen.KernelIdeal.Frame
import proofs.«153055_j82446192214214_2_alg».proof.Proof.RefRun
import Idealize.ShloMosaic.PureOps.Ideal

noncomputable section

namespace Cert.Proof.Table

open Idealize.ShloMosaic Idealize.ShloMosaic.TcCoe Idealize.SL.Sem Idealize.ShloMosaic.StableHlo

-- the operations are compared argument by argument, never computed
attribute [local irreducible] Host.gather Host.remsi iotaInDim broadcastInDim constantI in
set_option maxRecDepth 8192 in
set_option maxHeartbeats 1000000 in
/-- From contents that agree on the coefficients, the kernel's host operations leave in the table's buffer what the
    reference's leave in its own. -/
theorem table_agree (Vk : Valuation Cert.KernelIdeal.τ Cert.KernelIdeal.sig (Elt Ideal))
    (Vr : Valuation Cert.ReferenceIdeal.τ Cert.ReferenceIdeal.sig (Elt Ideal))
    (h : (Vr (Proc.devRef .tc Cert.ReferenceIdeal.main_arg1) : FVec Ideal ⟨1, ![128]⟩ .f32)
          = Vk (Proc.devRef .tc Cert.KernelIdeal.main_arg1)) :
    (after (List.flatten [Cert.KernelIdeal.Gen.hostOps0, Cert.KernelIdeal.Gen.hostOps0_1, Cert.KernelIdeal.Gen.hostOps0_2]) Vk
        (Proc.devRef .tc Cert.KernelIdeal.main_v14) : FVec Ideal ⟨2, ![128, 128]⟩ .f32)
      = after Cert.ReferenceIdeal.Hand.opsW Vr (Proc.devRef .tc Cert.ReferenceIdeal.main_v17) := by
  simp only [Cert.KernelIdeal.Gen.hostOps0, Cert.KernelIdeal.Gen.hostOps0_1, Cert.KernelIdeal.Gen.hostOps0_2,
    List.flatten_cons, List.flatten_nil, List.append_nil, List.cons_append, List.nil_append]
  after_results_simp
  rw [h]
  rfl

end Cert.Proof.Table

end
-- ==== Proof.lean ====
/-
  The kernel multiplies every row of the input, extended by a one, into a fixed table, and so does the reference.

  Inputs:  x : [2, 2048, 127]  and coefficients  coeffs : [128].   Result:  out : [2, 2048, 128, 128],
      out(b, t, i, j) = x̃(b, t, i) · W(i, j),     x̃(b, t, i) = x(b, t, i) for i < 127,  x̃(b, t, 127) = 1,
      W(i, j) = coeffs[(i + j) mod 128].
  Both programs build W on the host by the same operations (Proof/Table.lean), so W enters as one shared value
  and is never opened.  The kernel computes the product block by block — 128 rows of one batch per grid point,
  the ones column appended inside the body — and its 32 blocks tile the result (Proof/Payload.lean,
  Proof/KernelValue.lean).  The reference appends the ones column to the whole input, broadcasts both operands to
  the result's shape and multiplies (Proof/RefRun.lean, Proof/RefValue.lean).  Both are the one function
  `outVal` of Proof/Spec.lean, entry by entry, on the extended reals; the only arithmetic is the entrywise
  product itself, so the finiteness of the inputs is not used.

  The frames of the two kernel programs are the generated ones; the reference's frame is its run with the result
  dropped.  The idealization rewrote nothing, so there is nothing to preserve.
-/
import proofs.«153055_j82446192214214_2_alg».proof.Defs
import proofs.«153055_j82446192214214_2_alg».proof.Proof.Gen.Kernel
import proofs.«153055_j82446192214214_2_alg».proof.Proof.Gen.Kernel.Skeleton
import proofs.«153055_j82446192214214_2_alg».proof.Proof.Gen.Kernel.Launch
import proofs.«153055_j82446192214214_2_alg».proof.Proof.Gen.Kernel.Points
import proofs.«153055_j82446192214214_2_alg».proof.Proof.Gen.Kernel.Frame
import proofs.«153055_j82446192214214_2_alg».proof.Proof.Gen.KernelIdeal
import proofs.«153055_j82446192214214_2_alg».proof.Proof.Gen.KernelIdeal.Skeleton
import proofs.«153055_j82446192214214_2_alg».proof.Proof.Gen.KernelIdeal.Launch
import proofs.«153055_j82446192214214_2_alg».proof.Proof.Gen.KernelIdeal.Points
import proofs.«153055_j82446192214214_2_alg».proof.Proof.Gen.KernelIdeal.Frame
import proofs.«153055_j82446192214214_2_alg».proof.Proof.Gen.KernelIdeal.Value
import proofs.«153055_j82446192214214_2_alg».proof.Proof.Gen.ReferenceIdeal
import proofs.«153055_j82446192214214_2_alg».proof.Proof.Gen.Pre_finite_inputs
import proofs.«153055_j82446192214214_2_alg».proof.Proof.KernelValue
import proofs.«153055_j82446192214214_2_alg».proof.Proof.RefValue
import proofs.«153055_j82446192214214_2_alg».proof.Proof.Table
import Idealize.ShloMosaic.Adequacy
import Idealize.ShloMosaic.Init

noncomputable section

namespace Cert.Proof

open Idealize.ShloMosaic Idealize.ShloMosaic.TcCoe Idealize.SL.Sem Idealize.ShloMosaic.StableHlo
open Cert.OnesColumnProduct Cert.ReferenceIdeal.Hand

theorem frame_k : Cert.frame_Kernel := fun m ρ _ => Cert.Kernel.Gen.frame m ρ

theorem frame_ki : Cert.frame_KernelIdeal := fun m ρ _ => Cert.KernelIdeal.Gen.frame m ρ

/-- The reference's run leaves both arguments as launched: no stretch writes them. -/
theorem frame_ri : Cert.frame_ReferenceIdeal := fun m ρ _ =>
  (θ_run Cert.ReferenceIdeal.defs _ _).mono
    (fun _ h c => ⟨(h c Cert.ReferenceIdeal.main_arg0).trans (by rw [tail_arg0, tab_keeps_arg0, ext_arg0]),
      (h c Cert.ReferenceIdeal.main_arg1).trans (by rw [tail_arg1, tab_keeps_arg1, ext_arg1])⟩)
    (run_main (F := Ideal) m ρ)

/-- The idealization rewrote no operation. -/
theorem preserves : Cert.preserves_Kernel_KernelIdeal := trivial

/-- From memories that agree on the input and the coefficients, the kernel's result array and the reference's are
    `outVal` of the same input and the same table. -/
theorem algebraic : Cert.algebraic_KernelIdeal_ReferenceIdeal := by
  intro m ρ m' ρ' _ hagree
  refine ⟨fun c => outVal (m ((c.tc : Thread Cert.KernelIdeal.nD Cert.KernelIdeal.τ).loc Cert.KernelIdeal.main_arg0))
      (Cert.KernelIdeal.Gen.V m c Cert.KernelIdeal.main_v14), Cert.KernelIdeal.Bridge.run m ρ, ?_⟩
  refine (θ_run Cert.ReferenceIdeal.defs _ _).mono (fun _ h c => ⟨?_, ?_, ?_⟩) (run_main (F := Ideal) m' ρ')
  · refine (h c Cert.ReferenceIdeal.main_v22).trans ?_
    rw [result_eq]
    exact congrArg₂ outVal (hagree c).1
      (Cert.Proof.Table.table_agree (fun b => m (c, b)) (after opsX (launchContents m' c))
        (by rw [ext_arg1]; exact (hagree c).2)).symm
  · exact (h c Cert.ReferenceIdeal.main_arg0).trans (by rw [tail_arg0, tab_keeps_arg0, ext_arg0])
  · exact (h c Cert.ReferenceIdeal.main_arg1).trans (by rw [tail_arg1, tab_keeps_arg1, ext_arg1])

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
